-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S1600000 32) (main_arg2 : IVec S1600000 32) (main_arg3 : FVec F S64x64 .f32) (main_arg4 : FVec F S64 .f32) (main_arg5 : FVec F S64x64 .f32) (main_arg6 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_v13 main_v16
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S5000x64 : Shape := ⟨2, ![5000, 64]⟩
abbrev S1x64 : Shape := ⟨2, ![1, 64]⟩

abbrev nBuf : Space → Nat
  | .hbm => 39
  | .vmem => 16
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S100000x64, .bf16⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .bf16⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S100000x64, .f32⟩
  | .hbm, ⟨23, _⟩ => ⟨S100000x64, .bf16⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x64, .bf16⟩
  | .hbm, ⟨33, _⟩ => ⟨S1600000x64, .f32⟩
  | .hbm, ⟨34, _⟩ => ⟨S_, .f32⟩
  | .hbm, ⟨35, _⟩ => ⟨S100000x64, .f32⟩
  | .hbm, ⟨36, _⟩ => ⟨S1600000x1, .i32⟩
  | .hbm, ⟨37, _⟩ => ⟨S100000x64, .f32⟩
  | .hbm, ⟨38, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S64, .f32⟩
  | .local _ .vmem, ⟨14, _⟩ => ⟨S5000x64, .f32⟩
  | .local _ .vmem, ⟨15, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v12) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩

abbrev nBuf : Space → Nat
  | .hbm => 55
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .f32⟩
  | .hbm, ⟨16, _⟩ => ⟨S_, .f32⟩
  | .hbm, ⟨17, _⟩ => ⟨S100000x64, .f32⟩
  | .hbm, ⟨18, _⟩ => ⟨S1600000x1, .i32⟩
  | .hbm, ⟨19, _⟩ => ⟨S100000x64, .f32⟩
  | .hbm, ⟨20, _⟩ => ⟨S_, .f32⟩
  | .hbm, ⟨21, _⟩ => ⟨S100000x64, .f32⟩
  | .hbm, ⟨22, _⟩ => ⟨S100000x64, .f32⟩
  | .hbm, ⟨23, _⟩ => ⟨S100000x64, .f32⟩
  | .hbm, ⟨24, _⟩ => ⟨S100000x64, .f32⟩
  | .hbm, ⟨25, _⟩ => ⟨S1x64, .f32⟩
  | .hbm, ⟨26, _⟩ => ⟨S100000x64, .f32⟩
  | .hbm, ⟨27, _⟩ => ⟨S100000x64, .f32⟩
  | .hbm, ⟨28, _⟩ => ⟨S_, .f32⟩
  | .hbm, ⟨29, _⟩ => ⟨S100000x64, .f32⟩
  | .hbm, ⟨30, _⟩ => ⟨S100000x64, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x64, .f32⟩
  | .hbm, ⟨40, _⟩ => ⟨S_, .f32⟩
  | .hbm, ⟨41, _⟩ => ⟨S100000x64, .f32⟩
  | .hbm, ⟨42, _⟩ => ⟨S1600000x1, .i32⟩
  | .hbm, ⟨43, _⟩ => ⟨S100000x64, .f32⟩
  | .hbm, ⟨44, _⟩ => ⟨S_, .f32⟩
  | .hbm, ⟨45, _⟩ => ⟨S100000x64, .f32⟩
  | .hbm, ⟨46, _⟩ => ⟨S100000x64, .f32⟩
  | .hbm, ⟨47, _⟩ => ⟨S100000x64, .f32⟩
  | .hbm, ⟨48, _⟩ => ⟨S100000x64, .f32⟩
  | .hbm, ⟨49, _⟩ => ⟨S1x64, .f32⟩
  | .hbm, ⟨50, _⟩ => ⟨S100000x64, .f32⟩
  | .hbm, ⟨51, _⟩ => ⟨S100000x64, .f32⟩
  | .hbm, ⟨52, _⟩ => ⟨S_, .f32⟩
  | .hbm, ⟨53, _⟩ => ⟨S100000x64, .f32⟩
  | .hbm, ⟨54, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_call1_cst : Ref sig .tc := ⟨.hbm, 52, rfl⟩
abbrev main_call1_v0 : Ref sig .tc := ⟨.hbm, 53, rfl⟩
abbrev main_v35 : Ref sig .tc := ⟨.hbm, 54, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Boundary.lean ====
/-
  The run of the whole program, with EVERY buffer's final contents named.

  The program is four stretches in a row: host operations, the first launch, host operations, the second
  launch. The contents of the buffers at each boundary are a fold from the launch memory: after a host
  stretch, what its operations compute from the contents before it; after a launch, the launch's arrays at
  what its write-backs leave and every other buffer as it was. `W4` names the contents after the last
  stretch. The statement here is that every weakly fair execution terminates, without a fault, in a state
  whose every unscoped buffer holds `W4` of it — the result buffer and the argument buffers among them. The
  frame claim keeps only the arguments of this; the value claim needs the result as well.
-/
import proofs.«111389_j4587025072633_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and every unscoped buffer of every
    core ends at the last boundary's contents. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.KernelIdeal.Hand

end
-- ==== Proof.LayerSpec.lean ====
/-
  One layer of the graph network, dense half, as plain mathematics on the extended reals.

  A layer maps node features `h` (one row of 64 numbers per node) and the aggregated neighbour
  features `a` (same layout) to new node features: at node `r` and output feature `q`

      out r q = max ( (sum over k < 64 of (1 * h r k + a r k) * W k q) + b q , 0 ).

  `cell` is that number as a function of the two rows, the weight column and the bias entry;
  `dense` is the whole array of them over the 100000 nodes. The constants 1 and 0 are kept as the
  f32 words both programs print, so neither side is ever evaluated: the same word stands on both.
  Every entry depends on ONE row of `h` and of `a` only, which is why computing the layer on a block
  of consecutive rows gives the same rows as computing it on the whole array.
-/
import Idealize.ShloMosaic.PureOps.Ideal
import Idealize.ShloMosaic.Lib.ValueIdx

noncomputable section

namespace Cert.GinSpec

open Idealize.ShloMosaic Idealize.ShloMosaic.ValueIdx

/-- The layer's value at one node and one output feature, from that node's row of features `hrow`, its row
    of aggregated neighbour features `arow`, the weight matrix's column `wcol` and the bias entry. -/
def cell (hrow arow wcol : Fin 64 → EReal) (bias : EReal) : EReal :=
  max ((∑ k : Fin 64, (Ideal.ofBits .f32 0x3F800000#32 * hrow k + arow k) * wcol k) + bias)
    (Ideal.ofBits .f32 0x00000000#32)

/-- The layer at node `r`, output feature `q`, of whole arrays. -/
def denseAt (h a : (⟨2, ![100000, 64]⟩ : Shape).Idx → EReal) (W : (⟨2, ![64, 64]⟩ : Shape).Idx → EReal)
    (b : (⟨1, ![64]⟩ : Shape).Idx → EReal) (r : Fin 100000) (q : Fin 64) : EReal :=
  cell (fun k => h (ix2 r k)) (fun k => a (ix2 r k)) (fun k => W (ix2 k q)) (b (ix1 q))

/-- The layer as one function from arrays to an array, index by index. -/
def dense (h a : (⟨2, ![100000, 64]⟩ : Shape).Idx → EReal) (W : (⟨2, ![64, 64]⟩ : Shape).Idx → EReal)
    (b : (⟨1, ![64]⟩ : Shape).Idx → EReal) : (⟨2, ![100000, 64]⟩ : Shape).Idx → EReal :=
  fun i => denseAt h a W b (i 0) (i 1)

theorem dense_apply (h a : (⟨2, ![100000, 64]⟩ : Shape).Idx → EReal) (W : (⟨2, ![64, 64]⟩ : Shape).Idx → EReal)
    (b : (⟨1, ![64]⟩ : Shape).Idx → EReal) (r : Fin 100000) (q : Fin 64) :
    dense h a W b (ix2 r q) = denseAt h a W b r q := rfl

end Cert.GinSpec

end
-- ==== Proof.Payload.lean ====
/-
  What the kernel body computes, read at one entry of its output block.

  The body loads a block of 5000 node rows `x0`, the matching 5000 rows of aggregated neighbour
  features `x1`, the whole weight matrix `x2` and the bias `x3`, and stores

      max ( (1 * x0 + x1) · x2 + (x3 as one row, repeated down the block) , 0 ).

  On the extended reals the two roundings to the short float format are the identity, and the matrix
  product into a zero accumulator is the plain sum over the 64 contracted positions. So the entry at
  row `p`, column `q` of the block is `GinSpec.cell` of row `p` of `x0`, row `p` of `x1`, column `q` of
  `x2` and entry `q` of `x3`. The second launch's body differs only by an identity reshape of `x0`.
-/
import proofs.«111389_j4587025072633_2_alg».proof.Proof.Gen.KernelIdeal.Skeleton
import proofs.«111389_j4587025072633_2_alg».proof.Proof.LayerSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx

/-- The block product's contraction has one axis, of 64 positions; `D` abbreviates its dimension record. -/
local notation "D" => dot_S5000x64_S64x64_S5000x64_1_0_0_1_n_n

theorem lhs_row (i : S5000x64.Idx) (s : (D).contr.Idx) : ((D).lhsIdx i s 0).val = (i 0).val := by
  unfold DotDims.lhsIdx
  rw [dif_neg (show ¬(0 : Fin S5000x64.rank) ∈ (D).lhsBatch by decide),
    dif_pos (show (0 : Fin S5000x64.rank) ∈ (D).lhsNonContracting by decide)]
  rfl

theorem lhs_col (i : S5000x64.Idx) (s : (D).contr.Idx) : ((D).lhsIdx i s 1).val = (s ⟨0, by decide⟩).val :=
  (D).lhsIdx_val_of_single rfl i s

theorem rhs_row (i : S5000x64.Idx) (s : (D).contr.Idx) : ((D).rhsIdx i s 0).val = (s ⟨0, by decide⟩).val :=
  (D).rhsIdx_val_of_single rfl i s

theorem rhs_col (i : S5000x64.Idx) (s : (D).contr.Idx) : ((D).rhsIdx i s 1).val = (i 1).val := by
  unfold DotDims.rhsIdx
  rw [dif_neg (show ¬(1 : Fin S64x64.rank) ∈ (D).rhsBatch by decide),
    dif_pos (show (1 : Fin S64x64.rank) ∈ (D).rhsNonContracting by decide)]
  rfl

/-- The block's matrix product into a zero accumulator, at row `p` and column `q`: the sum over the 64
    contracted positions of row `p` of the left factor times column `q` of the right one. -/
theorem matmul_block_apply {φ₁ φ₂ : FTy} (l : FVec Ideal S5000x64 φ₁) (r : FVec Ideal S64x64 φ₂) (p : Fin 5000) (q : Fin 64) :
    FloatOps.matmul (D) none l r (constant S5000x64 .f32 0x00000000#32) (ix2 p q)
      = ∑ k : Fin 64, l (ix2 p k) * r (ix2 k q) := by
  rw [Ideal.matmul_constant_zero_apply, ← Equiv.sum_comp (contrEquiv1 (D) 64 rfl rfl).symm]
  refine Finset.sum_congr rfl fun k _ => ?_
  have hk := contrEquiv1_symm_val (D) 64 rfl rfl k
  have el : (D).lhsIdx (ix2 p q) ((contrEquiv1 (D) 64 rfl rfl).symm k) = ix2 p k := funext fun a => Fin.ext (by
    match a with
    | ⟨0, _⟩ => exact lhs_row _ _
    | ⟨1, _⟩ => exact (lhs_col _ _).trans hk)
  have er : (D).rhsIdx (ix2 p q) ((contrEquiv1 (D) 64 rfl rfl).symm k) = ix2 k q := funext fun a => Fin.ext (by
    match a with
    | ⟨0, _⟩ => exact (rhs_row _ _).trans hk
    | ⟨1, _⟩ => exact rhs_col _ _)
  rw [el, er]

/-- The bias, reshaped to one row and repeated down the block, read at row `p`, column `q`: entry `q`. -/
theorem bias_block_apply (x3 : Vec Ideal S64 .f32) (p : Fin 5000) (q : Fin 64) :
    broadcastTo S5000x64 (shapeCast S1x64 x3 shapeCasts_S64_S1x64) broadcasts_S1x64_S5000x64 (ix2 p q) = x3 (ix1 q) :=
  (broadcastTo_1b_ab_apply _ _ p q).trans (shapeCast_a_1a_apply x3 _ 0 q)

/-- The first launch's stored block at row `p`, column `q`. -/
theorem pay0_apply (x0 x1 : Vec Ideal S5000x64 .f32) (x2 : Vec Ideal S64x64 .f32) (x3 : Vec Ideal S64 .f32)
    (p : Fin 5000) (q : Fin 64) :
    k0_pay1 (F := Ideal) x0 x1 x2 x3 (ix2 p q)
      = Cert.GinSpec.cell (fun k => x0 (ix2 p k)) (fun k => x1 (ix2 p k)) (fun k => x2 (ix2 k q)) (x3 (ix1 q)) := by
  unfold k0_pay1 Cert.GinSpec.cell
  dsimp only
  rw [maximumf_apply, addf_apply]
  refine congrArg₂ max (congrArg₂ (· + ·) ((matmul_block_apply _ _ p q).trans ?_) (bias_block_apply x3 p q)) rfl
  refine Finset.sum_congr rfl fun k _ => ?_
  rw [shapeCast_self]
  rfl

/-- The second launch's stored block at row `p`, column `q`: the same function of its loads. -/
theorem pay1_apply (x0 x1 : Vec Ideal S5000x64 .f32) (x2 : Vec Ideal S64x64 .f32) (x3 : Vec Ideal S64 .f32)
    (p : Fin 5000) (q : Fin 64) :
    k1_pay1 (F := Ideal) x0 x1 x2 x3 (ix2 p q)
      = Cert.GinSpec.cell (fun k => x0 (ix2 p k)) (fun k => x1 (ix2 p k)) (fun k => x2 (ix2 k q)) (x3 (ix1 q)) := by
  unfold k1_pay1 Cert.GinSpec.cell
  dsimp only
  rw [maximumf_apply, addf_apply]
  refine congrArg₂ max (congrArg₂ (· + ·) ((matmul_block_apply _ _ p q).trans ?_) (bias_block_apply x3 p q)) rfl
  refine Finset.sum_congr rfl fun k _ => ?_
  rw [shapeCast_self, shapeCast_self]
  rfl

end Cert.KernelIdeal.Hand

end
-- ==== Proof.Blocks0.lean ====
/-
  The first launch, from blocks to the whole array.

  The launch runs the body once per grid point `t = 0 … 19`. At point `t` the two row-blocked inputs are
  staged as rows `5000·t … 5000·t + 4999` of their arrays, the weight matrix and the bias are staged whole,
  and the body's block is written back to the same rows of the output array. Row `p` of block `t` is
  therefore row `5000·t + p` of the array, on the input side and on the output side alike; and since an
  entry of the layer depends on its own row only (`GinSpec.cell`), what point `t` writes back is block `t`
  of `GinSpec.dense` of the arrays as the launch finds them. The twenty blocks tile the 100000 rows — row
  `r` lies in block `r / 5000` — so after the launch the output array IS `GinSpec.dense` of the inputs.
  Everything is stated for arbitrary contents `V` of the buffers at the launch's entry.
-/
import proofs.«111389_j4587025072633_2_alg».proof.Proof.Gen.KernelIdeal.Frame
import proofs.«111389_j4587025072633_2_alg».proof.Proof.Payload
import Idealize.ShloMosaic.Lib.Pipeline.Value

set_option maxRecDepth 16384

noncomputable section

namespace Cert.KernelIdeal.Hand.L0

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The printed index maps over the grid: the row-blocked windows sit at block `t`, column block 0; the weight
    matrix and the bias at block 0. -/
theorem index_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

theorem point_lt (t : Fin cfg0.N) : t.val < 20 := lt_of_lt_of_eq t.isLt N_0

/-- Row `p` of block `t` as a row of the array. -/
def row (t : Fin cfg0.N) (p : Fin 5000) : Fin 100000 := ⟨5000 * t.val + p.val, by have := point_lt t; have := p.isLt; omega⟩

/-- Window 0's block at point `t`, read at row `p`: the array's row `5000·t + p`. -/
theorem blk0_apply (c : Dev nD) (t : Fin cfg0.N) (p : Fin 5000) (k : Fin 64) :
    (iblk0 V c 0 t : Vec Ideal S5000x64 .f32) (ix2 p k) = (V c main_arg0 : S100000x64.Idx → EReal) (ix2 (row t p) k) := by
  obtain ⟨e0, e1, -⟩ := index_facts t
  unfold iblk0
  show V c main_arg0 (((cfg0.win 0).blk t).view.emb (ix2 p k)) = V c main_arg0 (ix2 (row t p) k)
  refine congrArg (V c main_arg0) (funext fun a => Fin.ext ?_)
  match a with
  | ⟨0, _⟩ => show win0_0.index t (0 : Fin 2) * 5000 + 1 * p.val = 5000 * t.val + p.val; rw [e0]; omega
  | ⟨1, _⟩ => show win0_0.index t (1 : Fin 2) * 64 + 1 * k.val = k.val; rw [e1]; omega

/-- Window 1's block at point `t`, read at row `p`: the array's row `5000·t + p`. -/
theorem blk1_apply (c : Dev nD) (t : Fin cfg0.N) (p : Fin 5000) (k : Fin 64) :
    (iblk0 V c 1 t : Vec Ideal S5000x64 .f32) (ix2 p k) = (V c main_v11 : S100000x64.Idx → EReal) (ix2 (row t p) k) := by
  obtain ⟨-, -, e0, e1, -⟩ := index_facts t
  unfold iblk0
  show V c main_v11 (((cfg0.win 1).blk t).view.emb (ix2 p k)) = V c main_v11 (ix2 (row t p) k)
  refine congrArg (V c main_v11) (funext fun a => Fin.ext ?_)
  match a with
  | ⟨0, _⟩ => show win0_1.index t (0 : Fin 2) * 5000 + 1 * p.val = 5000 * t.val + p.val; rw [e0]; omega
  | ⟨1, _⟩ => show win0_1.index t (1 : Fin 2) * 64 + 1 * k.val = k.val; rw [e1]; omega

/-- Window 2's block at every point is the whole weight matrix. -/
theorem blk2_apply (c : Dev nD) (t : Fin cfg0.N) (k q : Fin 64) :
    (iblk0 V c 2 t : Vec Ideal S64x64 .f32) (ix2 k q) = (V c main_arg3 : S64x64.Idx → EReal) (ix2 k q) := by
  obtain ⟨-, -, -, -, e0, e1, -⟩ := index_facts t
  unfold iblk0
  show V c main_arg3 (((cfg0.win 2).blk t).view.emb (ix2 k q)) = V c main_arg3 (ix2 k q)
  refine congrArg (V c main_arg3) (funext fun a => Fin.ext ?_)
  match a with
  | ⟨0, _⟩ => show win0_2.index t (0 : Fin 2) * 64 + 1 * k.val = k.val; rw [e0]; omega
  | ⟨1, _⟩ => show win0_2.index t (1 : Fin 2) * 64 + 1 * q.val = q.val; rw [e1]; omega

/-- Window 3's block at every point is the whole bias. -/
theorem blk3_apply (c : Dev nD) (t : Fin cfg0.N) (q : Fin 64) :
    (iblk0 V c 3 t : Vec Ideal S64 .f32) (ix1 q) = (V c main_arg4 : S64.Idx → EReal) (ix1 q) := by
  obtain ⟨-, -, -, -, -, -, e0, -⟩ := index_facts t
  unfold iblk0
  show V c main_arg4 (((cfg0.win 3).blk t).view.emb (ix1 q)) = V c main_arg4 (ix1 q)
  refine congrArg (V c main_arg4) (funext fun a => Fin.ext ?_)
  match a with
  | ⟨0, _⟩ => show win0_3.index t (0 : Fin 1) * 64 + 1 * q.val = q.val; rw [e0]; omega

/-- The output window's block at point `t` sits at the same rows. -/
theorem out_emb (t : Fin cfg0.N) (p : Fin 5000) (q : Fin 64) :
    (((cfg0.win 4).blk t).view.emb (ix2 p q) : S100000x64.Idx) = ix2 (row t p) q := by
  obtain ⟨-, -, -, -, -, -, -, e0, e1⟩ := index_facts t
  refine funext fun a => Fin.ext ?_
  match a with
  | ⟨0, _⟩ => show win0_4.index t (0 : Fin 2) * 5000 + 1 * p.val = 5000 * t.val + p.val; rw [e0]; omega
  | ⟨1, _⟩ => show win0_4.index t (1 : Fin 2) * 64 + 1 * q.val = q.val; rw [e1]; omega

/-- The layer of the arrays as the launch finds them. -/
abbrev layer (c : Dev nD) : S100000x64.Idx → EReal :=
  Cert.GinSpec.dense (V c main_arg0) (V c main_v11) (V c main_arg3) (V c main_arg4)

/-- WHAT POINT `t` WRITES BACK is block `t` of the layer of the arrays as the launch finds them. -/
theorem flushed_eq (c : Dev nD) (t : Fin cfg0.N) :
    (dat0 (F := Ideal) V c).flushed 4 t = ((cfg0.win 4).blk t).view.read (Elt Ideal) (layer V c) := by
  show (cfg0.win 4).cut (grid0.coords t) ((dat0 V c).after 4 t) = _
  rw [after0_4]
  unfold out0_4
  rw [View.canon_unit_zero zero2]
  simp only [View.ld_unit_zero (S := S5000x64) zero2, View.ld_unit_zero (S := S64x64) zero2, View.ld_unit_zero (S := S64) zero1]
  funext j
  obtain ⟨p, q, rfl⟩ : ∃ (p : Fin 5000) (q : Fin 64), j = ix2 p q := ⟨j 0, j 1, eq_ix2 j⟩
  show k0_pay1 (iblk0 V c 0 t) (iblk0 V c 1 t) (iblk0 V c 2 t) (iblk0 V c 3 t) (ix2 p q)
    = layer V c (((cfg0.win 4).blk t).view.emb (ix2 p q))
  rw [out_emb t p q]
  refine (pay0_apply (iblk0 V c 0 t) (iblk0 V c 1 t) (iblk0 V c 2 t) (iblk0 V c 3 t) p q).trans ?_
  show Cert.GinSpec.cell _ _ _ _ = Cert.GinSpec.cell (fun k => V c main_arg0 (ix2 (row t p) k)) (fun k => V c main_v11 (ix2 (row t p) k))
    (fun k => V c main_arg3 (ix2 k q)) (V c main_arg4 (ix1 q))
  exact congr (congr (congr (congrArg Cert.GinSpec.cell (funext fun k => blk0_apply V c t p k))
    (funext fun k => blk1_apply V c t p k)) (funext fun k => blk2_apply V c t k q)) (blk3_apply V c t q)

/-- An index of the output array is in point `t`'s block iff each coordinate is in the block's range on its axis. -/
theorem mem_blk (t : Fin cfg0.N) (i : S100000x64.Idx) :
    i ∈ ((cfg0.win 4).blk t).view.set ↔ ∀ a : Fin 2, win0_4.index t a * S5000x64.size a ≤ (i a).val
      ∧ (i a).val < win0_4.index t a * S5000x64.size a + S5000x64.size a := by
  show i ∈ ((View.whole main_v12).slice (win0_4.rect t)).set ↔ _
  rw [View.set_slice_whole, Rect.mem_set_unit]
  exact Iff.rfl

/-- Every row lies in the block of the point `row / 5000`. -/
theorem cover (i : S100000x64.Idx) : ∃ t : Fin cfg0.N, (cfg0.win 4).flush t = true ∧ i ∈ ((cfg0.win 4).blk t).view.set := by
  have h0 : (i 0).val < 100000 := (i 0).isLt
  have h1 : (i 1).val < 64 := (i 1).isLt
  have hN : cfg0.N = 20 := N_0
  let t : Fin cfg0.N := ⟨(i 0).val / 5000, by rw [hN]; omega⟩
  have ht : t.val = (i 0).val / 5000 := rfl
  obtain ⟨-, -, -, -, -, -, -, e0, e1⟩ := index_facts t
  refine ⟨t, flush0_4 t, ?_⟩
  rw [mem_blk]
  intro a
  match a with
  | ⟨0, _⟩ => show win0_4.index t (0 : Fin 2) * 5000 ≤ (i 0).val ∧ (i 0).val < win0_4.index t (0 : Fin 2) * 5000 + 5000; rw [e0, ht]; omega
  | ⟨1, _⟩ => show win0_4.index t (1 : Fin 2) * 64 ≤ (i 1).val ∧ (i 1).val < win0_4.index t (1 : Fin 2) * 64 + 64; rw [e1]; omega

/-- THE OUTPUT ARRAY after the launch is the layer of the arrays as the launch finds them. -/
theorem final (c : Dev nD) : (dat0 (F := Ideal) V c).arrAt 4 cfg0.N = layer V c :=
  (dat0 V c).arrAt_eq_of_cover 4 (layer V c) (fun t _ => flushed_eq V c t) cover

end Cert.KernelIdeal.Hand.L0

end
-- ==== Proof.Blocks1.lean ====
/-
  The second launch, from blocks to the whole array.

  The launch runs the body once per grid point `t = 0 … 19`. At point `t` the two row-blocked inputs are
  staged as rows `5000·t … 5000·t + 4999` of their arrays, the weight matrix and the bias are staged whole,
  and the body's block is written back to the same rows of the output array. Row `p` of block `t` is
  therefore row `5000·t + p` of the array, on the input side and on the output side alike; and since an
  entry of the layer depends on its own row only (`GinSpec.cell`), what point `t` writes back is block `t`
  of `GinSpec.dense` of the arrays as the launch finds them. The twenty blocks tile the 100000 rows — row
  `r` lies in block `r / 5000` — so after the launch the output array IS `GinSpec.dense` of the inputs.
  Everything is stated for arbitrary contents `V` of the buffers at the launch's entry.
-/
import proofs.«111389_j4587025072633_2_alg».proof.Proof.Gen.KernelIdeal.Frame
import proofs.«111389_j4587025072633_2_alg».proof.Proof.Payload
import Idealize.ShloMosaic.Lib.Pipeline.Value

set_option maxRecDepth 16384

noncomputable section

namespace Cert.KernelIdeal.Hand.L1

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The printed index maps over the grid: the row-blocked windows sit at block `t`, column block 0; the weight
    matrix and the bias at block 0. -/
theorem index_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

theorem point_lt (t : Fin cfg1.N) : t.val < 20 := lt_of_lt_of_eq t.isLt N_1

/-- Row `p` of block `t` as a row of the array. -/
def row (t : Fin cfg1.N) (p : Fin 5000) : Fin 100000 := ⟨5000 * t.val + p.val, by have := point_lt t; have := p.isLt; omega⟩

/-- Window 0's block at point `t`, read at row `p`: the array's row `5000·t + p`. -/
theorem blk0_apply (c : Dev nD) (t : Fin cfg1.N) (p : Fin 5000) (k : Fin 64) :
    (iblk1 V c 0 t : Vec Ideal S5000x64 .f32) (ix2 p k) = (V c main_v12 : S100000x64.Idx → EReal) (ix2 (row t p) k) := by
  obtain ⟨e0, e1, -⟩ := index_facts t
  unfold iblk1
  show V c main_v12 (((cfg1.win 0).blk t).view.emb (ix2 p k)) = V c main_v12 (ix2 (row t p) k)
  refine congrArg (V c main_v12) (funext fun a => Fin.ext ?_)
  match a with
  | ⟨0, _⟩ => show win1_0.index t (0 : Fin 2) * 5000 + 1 * p.val = 5000 * t.val + p.val; rw [e0]; omega
  | ⟨1, _⟩ => show win1_0.index t (1 : Fin 2) * 64 + 1 * k.val = k.val; rw [e1]; omega

/-- Window 1's block at point `t`, read at row `p`: the array's row `5000·t + p`. -/
theorem blk1_apply (c : Dev nD) (t : Fin cfg1.N) (p : Fin 5000) (k : Fin 64) :
    (iblk1 V c 1 t : Vec Ideal S5000x64 .f32) (ix2 p k) = (V c main_v24 : S100000x64.Idx → EReal) (ix2 (row t p) k) := by
  obtain ⟨-, -, e0, e1, -⟩ := index_facts t
  unfold iblk1
  show V c main_v24 (((cfg1.win 1).blk t).view.emb (ix2 p k)) = V c main_v24 (ix2 (row t p) k)
  refine congrArg (V c main_v24) (funext fun a => Fin.ext ?_)
  match a with
  | ⟨0, _⟩ => show win1_1.index t (0 : Fin 2) * 5000 + 1 * p.val = 5000 * t.val + p.val; rw [e0]; omega
  | ⟨1, _⟩ => show win1_1.index t (1 : Fin 2) * 64 + 1 * k.val = k.val; rw [e1]; omega

/-- Window 2's block at every point is the whole weight matrix. -/
theorem blk2_apply (c : Dev nD) (t : Fin cfg1.N) (k q : Fin 64) :
    (iblk1 V c 2 t : Vec Ideal S64x64 .f32) (ix2 k q) = (V c main_arg5 : S64x64.Idx → EReal) (ix2 k q) := by
  obtain ⟨-, -, -, -, e0, e1, -⟩ := index_facts t
  unfold iblk1
  show V c main_arg5 (((cfg1.win 2).blk t).view.emb (ix2 k q)) = V c main_arg5 (ix2 k q)
  refine congrArg (V c main_arg5) (funext fun a => Fin.ext ?_)
  match a with
  | ⟨0, _⟩ => show win1_2.index t (0 : Fin 2) * 64 + 1 * k.val = k.val; rw [e0]; omega
  | ⟨1, _⟩ => show win1_2.index t (1 : Fin 2) * 64 + 1 * q.val = q.val; rw [e1]; omega

/-- Window 3's block at every point is the whole bias. -/
theorem blk3_apply (c : Dev nD) (t : Fin cfg1.N) (q : Fin 64) :
    (iblk1 V c 3 t : Vec Ideal S64 .f32) (ix1 q) = (V c main_arg6 : S64.Idx → EReal) (ix1 q) := by
  obtain ⟨-, -, -, -, -, -, e0, -⟩ := index_facts t
  unfold iblk1
  show V c main_arg6 (((cfg1.win 3).blk t).view.emb (ix1 q)) = V c main_arg6 (ix1 q)
  refine congrArg (V c main_arg6) (funext fun a => Fin.ext ?_)
  match a with
  | ⟨0, _⟩ => show win1_3.index t (0 : Fin 1) * 64 + 1 * q.val = q.val; rw [e0]; omega

/-- The output window's block at point `t` sits at the same rows. -/
theorem out_emb (t : Fin cfg1.N) (p : Fin 5000) (q : Fin 64) :
    (((cfg1.win 4).blk t).view.emb (ix2 p q) : S100000x64.Idx) = ix2 (row t p) q := by
  obtain ⟨-, -, -, -, -, -, -, e0, e1⟩ := index_facts t
  refine funext fun a => Fin.ext ?_
  match a with
  | ⟨0, _⟩ => show win1_4.index t (0 : Fin 2) * 5000 + 1 * p.val = 5000 * t.val + p.val; rw [e0]; omega
  | ⟨1, _⟩ => show win1_4.index t (1 : Fin 2) * 64 + 1 * q.val = q.val; rw [e1]; omega

/-- The layer of the arrays as the launch finds them. -/
abbrev layer (c : Dev nD) : S100000x64.Idx → EReal :=
  Cert.GinSpec.dense (V c main_v12) (V c main_v24) (V c main_arg5) (V c main_arg6)

/-- WHAT POINT `t` WRITES BACK is block `t` of the layer of the arrays as the launch finds them. -/
theorem flushed_eq (c : Dev nD) (t : Fin cfg1.N) :
    (dat1 (F := Ideal) V c).flushed 4 t = ((cfg1.win 4).blk t).view.read (Elt Ideal) (layer V c) := by
  show (cfg1.win 4).cut (grid1.coords t) ((dat1 V c).after 4 t) = _
  rw [after1_4]
  unfold out1_4
  rw [View.canon_unit_zero zero2]
  simp only [View.ld_unit_zero (S := S5000x64) zero2, View.ld_unit_zero (S := S64x64) zero2, View.ld_unit_zero (S := S64) zero1]
  funext j
  obtain ⟨p, q, rfl⟩ : ∃ (p : Fin 5000) (q : Fin 64), j = ix2 p q := ⟨j 0, j 1, eq_ix2 j⟩
  show k1_pay1 (iblk1 V c 0 t) (iblk1 V c 1 t) (iblk1 V c 2 t) (iblk1 V c 3 t) (ix2 p q)
    = layer V c (((cfg1.win 4).blk t).view.emb (ix2 p q))
  rw [out_emb t p q]
  refine (pay1_apply (iblk1 V c 0 t) (iblk1 V c 1 t) (iblk1 V c 2 t) (iblk1 V c 3 t) p q).trans ?_
  show Cert.GinSpec.cell _ _ _ _ = Cert.GinSpec.cell (fun k => V c main_v12 (ix2 (row t p) k)) (fun k => V c main_v24 (ix2 (row t p) k))
    (fun k => V c main_arg5 (ix2 k q)) (V c main_arg6 (ix1 q))
  exact congr (congr (congr (congrArg Cert.GinSpec.cell (funext fun k => blk0_apply V c t p k))
    (funext fun k => blk1_apply V c t p k)) (funext fun k => blk2_apply V c t k q)) (blk3_apply V c t q)

/-- An index of the output array is in point `t`'s block iff each coordinate is in the block's range on its axis. -/
theorem mem_blk (t : Fin cfg1.N) (i : S100000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v25).slice (win1_4.rect t)).set ↔ _
  rw [View.set_slice_whole, Rect.mem_set_unit]
  exact Iff.rfl

/-- Every row lies in the block of the point `row / 5000`. -/
theorem cover (i : S100000x64.Idx) : ∃ t : Fin cfg1.N, (cfg1.win 4).flush t = true ∧ i ∈ ((cfg1.win 4).blk t).view.set := by
  have h0 : (i 0).val < 100000 := (i 0).isLt
  have h1 : (i 1).val < 64 := (i 1).isLt
  have hN : cfg1.N = 20 := N_1
  let t : Fin cfg1.N := ⟨(i 0).val / 5000, by rw [hN]; omega⟩
  have ht : t.val = (i 0).val / 5000 := rfl
  obtain ⟨-, -, -, -, -, -, -, e0, e1⟩ := index_facts t
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; rw [e0, ht]; omega
  | ⟨1, _⟩ => show win1_4.index t (1 : Fin 2) * 64 ≤ (i 1).val ∧ (i 1).val < win1_4.index t (1 : Fin 2) * 64 + 64; rw [e1]; omega

/-- THE OUTPUT ARRAY after the launch is the layer of the arrays as the launch finds them. -/
theorem final (c : Dev nD) : (dat1 (F := Ideal) V c).arrAt 4 cfg1.N = layer V c :=
  (dat1 V c).arrAt_eq_of_cover 4 (layer V c) (fun t _ => flushed_eq V c t) cover

end Cert.KernelIdeal.Hand.L1

end
-- ==== Proof.KernelValue.lean ====
/-
  The result buffer's final contents, as two layers of the launch arguments.

  Between the launches the host computes, from node features `h` and the two edge index lists, the
  aggregated neighbour features: indices below zero are shifted up by the number of nodes, the rows of
  `h` at the source indices are gathered (through the short float format and back), and those rows are
  summed into a zero array at the destination indices. `agg` is that whole computation as ONE function of
  `h` and the two index lists; nothing here looks inside the gather or the sum.

  Walking the boundaries back from the end: the result buffer holds what the second launch leaves, which
  is `GinSpec.dense` of the second launch's inputs (Blocks1); those are the first launch's output and its
  `agg`, computed by the second host stretch, and the second weight matrix and bias, untouched since the
  program started; the first launch's output is `GinSpec.dense` of its inputs (Blocks0), which are the
  first argument, its `agg` from the first host stretch, and the first weight matrix and bias.
-/
import proofs.«111389_j4587025072633_2_alg».proof.Proof.Gen.KernelIdeal.Frame
import proofs.«111389_j4587025072633_2_alg».proof.Proof.Blocks0
import proofs.«111389_j4587025072633_2_alg».proof.Proof.Blocks1
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

section Aggregate

variable {F : FTy → Type} [FloatOps F]

/-- The aggregated neighbour features of `h` along the edges `s → d`, as the host computes them. -/
def agg (h : (⟨S100000x64, .f32⟩ : BufTy).Contents (Elt F)) (s d : (⟨S1600000, .i32⟩ : BufTy).Contents (Elt F)) :
    (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 d)
    (extf .f32 (Host.gather gather_S100000x64_S1600000x1_S1600000x64_1_0_n_n_0_1_164 (truncf .bf16 h bitsLt_bf16_f32)
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s))) bitsLt_bf16_f32)

variable (m : (ℓ : Loc nD τ sig) → Buf (Elt F) ℓ) (ρ : Dev nD → PrngReg)

/-! ## Before the first launch -/

theorem W1_arg0 (c : Dev nD) : W1 m ρ c (Proc.devRef .tc main_arg0) = m ((c : Thread nD τ).loc main_arg0) := by
  show StableHlo.after hostOps0 (W0 m ρ c) (Proc.devRef .tc main_arg0) = _
  after_results <;> rfl
theorem W1_arg1 (c : Dev nD) : W1 m ρ c (Proc.devRef .tc main_arg1) = m ((c : Thread nD τ).loc main_arg1) := by
  show StableHlo.after hostOps0 (W0 m ρ c) (Proc.devRef .tc main_arg1) = _
  after_results <;> rfl
theorem W1_arg2 (c : Dev nD) : W1 m ρ c (Proc.devRef .tc main_arg2) = m ((c : Thread nD τ).loc main_arg2) := by
  show StableHlo.after hostOps0 (W0 m ρ c) (Proc.devRef .tc main_arg2) = _
  after_results <;> rfl
theorem W1_arg3 (c : Dev nD) : W1 m ρ c (Proc.devRef .tc main_arg3) = m ((c : Thread nD τ).loc main_arg3) := by
  show StableHlo.after hostOps0 (W0 m ρ c) (Proc.devRef .tc main_arg3) = _
  after_results <;> rfl
theorem W1_arg4 (c : Dev nD) : W1 m ρ c (Proc.devRef .tc main_arg4) = m ((c : Thread nD τ).loc main_arg4) := by
  show StableHlo.after hostOps0 (W0 m ρ c) (Proc.devRef .tc main_arg4) = _
  after_results <;> rfl
theorem W1_arg5 (c : Dev nD) : W1 m ρ c (Proc.devRef .tc main_arg5) = m ((c : Thread nD τ).loc main_arg5) := by
  show StableHlo.after hostOps0 (W0 m ρ c) (Proc.devRef .tc main_arg5) = _
  after_results <;> rfl
theorem W1_arg6 (c : Dev nD) : W1 m ρ c (Proc.devRef .tc main_arg6) = m ((c : Thread nD τ).loc main_arg6) := by
  show StableHlo.after hostOps0 (W0 m ρ c) (Proc.devRef .tc main_arg6) = _
  after_results <;> rfl

/-- The first host stretch leaves the aggregate of the first argument in the first launch's second input. -/
theorem W1_agg (c : Dev nD) : W1 m ρ c (Proc.devRef .tc main_v11)
    = agg (m ((c : Thread nD τ).loc main_arg0)) (m ((c : Thread nD τ).loc main_arg1)) (m ((c : Thread nD τ).loc main_arg2)) := by
  show StableHlo.after hostOps0 (W0 m ρ c) (Proc.devRef .tc main_v11) = _
  after_results <;> rfl

/-! ## After the first launch: the index lists and the second layer's parameters are as launched -/

theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)

/-! ## Before the second launch -/

theorem W3_h (c : Dev nD) : W3 m ρ c (Proc.devRef .tc main_v12) = W2 m ρ c (Proc.devRef .tc main_v12) := by
  show StableHlo.after hostOps1 (W2 m ρ c) (Proc.devRef .tc main_v12) = _
  after_results <;> rfl
theorem W3_arg5 (c : Dev nD) : W3 m ρ c (Proc.devRef .tc main_arg5) = m ((c : Thread nD τ).loc main_arg5) := by
  refine Eq.trans ?_ (W2_arg5 m ρ c)
  show StableHlo.after hostOps1 (W2 m ρ c) (Proc.devRef .tc main_arg5) = _
  after_results <;> rfl
theorem W3_arg6 (c : Dev nD) : W3 m ρ c (Proc.devRef .tc main_arg6) = m ((c : Thread nD τ).loc main_arg6) := by
  refine Eq.trans ?_ (W2_arg6 m ρ c)
  show StableHlo.after hostOps1 (W2 m ρ c) (Proc.devRef .tc main_arg6) = _
  after_results <;> rfl

/-- The second host stretch leaves the aggregate of the first launch's output in the second launch's second input. -/
theorem W3_agg (c : Dev nD) : W3 m ρ c (Proc.devRef .tc main_v24)
    = agg (W2 m ρ c (Proc.devRef .tc main_v12)) (m ((c : Thread nD τ).loc main_arg1)) (m ((c : Thread nD τ).loc main_arg2)) := by
  refine Eq.trans ?_ (congrArg₂ (agg (W2 m ρ c (Proc.devRef .tc main_v12))) (W2_arg1 m ρ c) (W2_arg2 m ρ c))
  show StableHlo.after hostOps1 (W2 m ρ c) (Proc.devRef .tc main_v24) = _
  after_results <;> rfl

end Aggregate

/-! ## On the extended reals: the launches' outputs -/

variable (m : (ℓ : Loc nD τ sig) → Buf (Elt Ideal) ℓ) (ρ : Dev nD → PrngReg)

/-- One layer of the network: the dense half applied to the features and their aggregate. -/
def layerOf (h : S100000x64.Idx → EReal) (s d : (⟨S1600000, .i32⟩ : BufTy).Contents (Elt Ideal))
    (W : S64x64.Idx → EReal) (b : S64.Idx → EReal) : S100000x64.Idx → EReal :=
  Cert.GinSpec.dense h (agg (F := Ideal) h s d) W b

/-- Both layers, the second fed by the first: what the program computes. -/
def twoLayers (x0 : S100000x64.Idx → EReal) (x1 x2 : (⟨S1600000, .i32⟩ : BufTy).Contents (Elt Ideal))
    (x3 : S64x64.Idx → EReal) (x4 : S64.Idx → EReal) (x5 : S64x64.Idx → EReal) (x6 : S64.Idx → EReal) : S100000x64.Idx → EReal :=
  layerOf (layerOf x0 x1 x2 x3 x4) x1 x2 x5 x6

/-- After the first launch its output holds the first layer of the arguments. -/
theorem W2_h (c : Dev nD) : W2 m ρ c (Proc.devRef .tc main_v12)
    = layerOf (m ((c : Thread nD τ).loc main_arg0)) (m ((c : Thread nD τ).loc main_arg1)) (m ((c : Thread nD τ).loc main_arg2))
        (m ((c : Thread nD τ).loc main_arg3)) (m ((c : Thread nD τ).loc main_arg4)) := by
  refine ((W2_arr m ρ c 4).trans (L0.final (V1 m ρ) c)).trans ?_
  show Cert.GinSpec.dense (W1 m ρ c (Proc.devRef .tc main_arg0)) (W1 m ρ c (Proc.devRef .tc main_v11))
      (W1 m ρ c (Proc.devRef .tc main_arg3)) (W1 m ρ c (Proc.devRef .tc main_arg4)) = _
  rw [W1_arg0, W1_agg, W1_arg3, W1_arg4]
  rfl

/-- THE RESULT: after the second launch the result buffer holds both layers of the arguments. -/
theorem W4_result (c : Dev nD) : W4 m ρ c (Proc.devRef .tc main_v25)
    = twoLayers (m ((c : Thread nD τ).loc main_arg0)) (m ((c : Thread nD τ).loc main_arg1)) (m ((c : Thread nD τ).loc main_arg2))
        (m ((c : Thread nD τ).loc main_arg3)) (m ((c : Thread nD τ).loc main_arg4))
        (m ((c : Thread nD τ).loc main_arg5)) (m ((c : Thread nD τ).loc main_arg6)) := by
  refine ((W4_arr m ρ c 4).trans (L1.final (V3 m ρ) c)).trans ?_
  show Cert.GinSpec.dense (W3 m ρ c (Proc.devRef .tc main_v12)) (W3 m ρ c (Proc.devRef .tc main_v24))
      (W3 m ρ c (Proc.devRef .tc main_arg5)) (W3 m ρ c (Proc.devRef .tc main_arg6)) = _
  rw [W3_h, W3_agg, W3_arg5, W3_arg6, W2_h]
  rfl

end Cert.KernelIdeal.Hand

end
-- ==== Proof.KernelRun.lean ====
/-
  The kernel program's run, with the result named.

  Every weakly fair execution terminates, nothing faulting; the result buffer ends holding both layers of
  the arguments (`twoLayers`), and every argument buffer ends as launched: the boundary run (Boundary) read at the
  result buffer (KernelValue) and at each argument buffer (the fold walks back to the launch memory, no
  stretch writing an argument).
-/
import proofs.«111389_j4587025072633_2_alg».proof.Proof.Boundary
import proofs.«111389_j4587025072633_2_alg».proof.Proof.KernelValue

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

theorem run_value : θ_run defs (onTc (τ := τ) (main (F := Ideal))) ⟨m, fun _ => 0, ρ⟩ (fun r => ∀ c : Dev nD,
      r.2.mem ((c.tc : Thread nD τ).loc main_v25)
        = twoLayers (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
            (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
      ⟨(h c _ (mem_uc main_v25 (by decide))).trans (W4_result m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)
    (run_boundary (F := Ideal) m ρ)

end Cert.KernelIdeal.Hand

end
-- ==== Proof.RefValue.lean ====
/-
  The reference program's result, as the same two layers.

  The reference computes each layer on whole arrays: the aggregate of the features, then
  `max ((1 * h + agg) · W + b, 0)` with the bias repeated down the rows. Read at node `r` and output feature
  `q`, the matrix product is the sum over the 64 contracted positions of row `r` of the left factor times
  column `q` of `W`, and the repeated bias is its entry `q`: that is `GinSpec.cell` of row `r`, so each layer
  is `GinSpec.dense` of its inputs. The second layer's aggregate is the first layer's aggregate function
  applied to the first layer's output, with the same two index lists.
-/
import proofs.«111389_j4587025072633_2_alg».proof.Proof.Gen.ReferenceIdeal.Read
import proofs.«111389_j4587025072633_2_alg».proof.Proof.LayerSpec
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

/-! ## Where each stage reads its operands, at node `r` and feature `q` -/

theorem left1 (r : Fin 100000) (q k : Fin 64) : lidx_main_v13 (ix2 r q) k = ix2 r k :=
  funext fun a => by match a with | ⟨0, _⟩ => rfl | ⟨1, _⟩ => rfl
theorem right1 (r : Fin 100000) (q k : Fin 64) : ridx_main_v13 (ix2 r q) k = ix2 k q :=
  funext fun a => by match a with | ⟨0, _⟩ => rfl | ⟨1, _⟩ => rfl
theorem bias1 (r : Fin 100000) (q : Fin 64) : idx_main_v14 (idx_main_v15 (ix2 r q)) = ix1 q :=
  funext fun a => by match a with | ⟨0, _⟩ => rfl
theorem left2 (r : Fin 100000) (q k : Fin 64) : lidx_main_v31 (ix2 r q) k = ix2 r k :=
  funext fun a => by match a with | ⟨0, _⟩ => rfl | ⟨1, _⟩ => rfl
theorem right2 (r : Fin 100000) (q k : Fin 64) : ridx_main_v31 (ix2 r q) k = ix2 k q :=
  funext fun a => by match a with | ⟨0, _⟩ => rfl | ⟨1, _⟩ => rfl
theorem bias2 (r : Fin 100000) (q : Fin 64) : idx_main_v32 (idx_main_v33 (ix2 r q)) = ix1 q :=
  funext fun a => by match a with | ⟨0, _⟩ => rfl

variable (x0 : (⟨S100000x64, .f32⟩ : BufTy).Contents (Elt Ideal)) (x1 x2 : (⟨S1600000, .i32⟩ : BufTy).Contents (Elt Ideal))
  (x3 : (⟨S64x64, .f32⟩ : BufTy).Contents (Elt Ideal)) (x4 : (⟨S64, .f32⟩ : BufTy).Contents (Elt Ideal))
  (x5 : (⟨S64x64, .f32⟩ : BufTy).Contents (Elt Ideal)) (x6 : (⟨S64, .f32⟩ : BufTy).Contents (Elt Ideal))

/-- The first layer's output is the dense half of the first argument and its aggregate. -/
theorem layer1_eq : val_main_v17 (F := Ideal) x0 x1 x2 x3 x4
    = Cert.GinSpec.dense x0 (val_main_v9 (F := Ideal) x0 x1 x2) x3 x4 := by
  funext i
  obtain ⟨r, q, rfl⟩ : ∃ (r : Fin 100000) (q : Fin 64), i = ix2 r q := ⟨i 0, i 1, eq_ix2 i⟩
  rw [val_main_v17_apply, val_main_v16_apply, val_main_v13_apply, val_main_v15_apply, val_main_v14_apply,
    val_main_call0_v0_apply, val_main_call0_cst_apply]
  simp only [val_main_v12_apply, val_main_v11_apply, val_main_v10_apply, val_main_cst_1_apply, left1, right1, bias1]
  rfl

/-- The second layer's aggregate is the first layer's aggregate function, of the first layer's output. -/
theorem agg2_eq : val_main_v27 (F := Ideal) x0 x1 x2 x3 x4
    = val_main_v9 (F := Ideal) (val_main_v17 (F := Ideal) x0 x1 x2 x3 x4) x1 x2 := rfl

/-- The result is the dense half of the first layer's output and its aggregate. -/
theorem layer2_eq : val_main_v35 (F := Ideal) x0 x1 x2 x3 x4 x5 x6
    = Cert.GinSpec.dense (val_main_v17 (F := Ideal) x0 x1 x2 x3 x4)
        (val_main_v9 (F := Ideal) (val_main_v17 (F := Ideal) x0 x1 x2 x3 x4) x1 x2) x5 x6 := by
  funext i
  obtain ⟨r, q, rfl⟩ : ∃ (r : Fin 100000) (q : Fin 64), i = ix2 r q := ⟨i 0, i 1, eq_ix2 i⟩
  rw [val_main_v35_apply, val_main_v34_apply, val_main_v31_apply, val_main_v33_apply, val_main_v32_apply,
    val_main_call1_v0_apply, val_main_call1_cst_apply]
  simp only [val_main_v30_apply, val_main_v29_apply, val_main_v28_apply, val_main_cst_5_apply, left2, right2, bias2]
  rw [agg2_eq]
  rfl

end Cert.ReferenceIdeal.RefValue

end
-- ==== Proof.Claims.lean ====
/-
  The five claims.

  Both programs end with the result buffer at `twoLayers` of the arguments: for the kernel program this is
  its run read at the result buffer (KernelRun); for the reference it is its generated run, whose result term
  is two dense layers (RefValue), once the host's neighbour aggregate is seen to be ONE function in the two
  programs — the same index shift, gather and summation; the kernel program only routes the gathered rows
  through the short float format, which is the identity on the extended reals. No property of the inputs is
  used: the two sides are the same function of the arguments, so the finiteness precondition is never opened.
  The three frames are the generated frame runs; nothing was rewritten when the kernel was idealized, so the
  preservation claim is trivially true.
-/
import proofs.«111389_j4587025072633_2_alg».proof.Defs
import proofs.«111389_j4587025072633_2_alg».proof.Proof.Gen.Kernel
import proofs.«111389_j4587025072633_2_alg».proof.Proof.Gen.Kernel.Frame
import proofs.«111389_j4587025072633_2_alg».proof.Proof.Gen.KernelIdeal
import proofs.«111389_j4587025072633_2_alg».proof.Proof.Gen.KernelIdeal.Frame
import proofs.«111389_j4587025072633_2_alg».proof.Proof.Gen.ReferenceIdeal
import proofs.«111389_j4587025072633_2_alg».proof.Proof.Gen.Pre_finite_inputs
import proofs.«111389_j4587025072633_2_alg».proof.Proof.Gen.ReferenceIdeal.Run
import proofs.«111389_j4587025072633_2_alg».proof.Proof.Gen.ReferenceIdeal.Read
import proofs.«111389_j4587025072633_2_alg».proof.Proof.KernelRun
import proofs.«111389_j4587025072633_2_alg».proof.Proof.RefValue

noncomputable section

namespace Cert.Proof.GinClaims

open Idealize.ShloMosaic Idealize.ShloMosaic.TcCoe Idealize.SL.Sem

/-- The host's neighbour aggregate is one function in the two programs. -/
theorem agg_eq (h : (⟨Cert.KernelIdeal.S100000x64, .f32⟩ : BufTy).Contents (Elt Ideal))
    (s d : (⟨Cert.KernelIdeal.S1600000, .i32⟩ : BufTy).Contents (Elt Ideal)) :
    Cert.KernelIdeal.Hand.agg (F := Ideal) h s d = Cert.ReferenceIdeal.Read.val_main_v9 (F := Ideal) h s d := rfl

/-- The reference's result term is both layers of its arguments. -/
theorem ref_value (x0 : (⟨Cert.ReferenceIdeal.S100000x64, .f32⟩ : BufTy).Contents (Elt Ideal))
    (x1 x2 : (⟨Cert.ReferenceIdeal.S1600000, .i32⟩ : BufTy).Contents (Elt Ideal))
    (x3 : (⟨Cert.ReferenceIdeal.S64x64, .f32⟩ : BufTy).Contents (Elt Ideal)) (x4 : (⟨Cert.ReferenceIdeal.S64, .f32⟩ : BufTy).Contents (Elt Ideal))
    (x5 : (⟨Cert.ReferenceIdeal.S64x64, .f32⟩ : BufTy).Contents (Elt Ideal)) (x6 : (⟨Cert.ReferenceIdeal.S64, .f32⟩ : BufTy).Contents (Elt Ideal)) :
    Cert.ReferenceIdeal.Read.val_main_v35 (F := Ideal) x0 x1 x2 x3 x4 x5 x6
      = Cert.KernelIdeal.Hand.twoLayers x0 x1 x2 x3 x4 x5 x6 := by
  rw [Cert.ReferenceIdeal.RefValue.layer2_eq, Cert.ReferenceIdeal.RefValue.layer1_eq]
  unfold Cert.KernelIdeal.Hand.twoLayers Cert.KernelIdeal.Hand.layerOf
  simp only [agg_eq]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end with the result buffer at `twoLayers` of the
    arguments, and the arguments unchanged. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, ref_value, (hagree c).1, (hagree c).2.1, (hagree c).2.2.1, (hagree c).2.2.2.1,
    (hagree c).2.2.2.2.1, (hagree c).2.2.2.2.2.1, (hagree c).2.2.2.2.2.2]

end Cert.Proof.GinClaims

end
-- ==== Proof.lean ====
/-
  Two layers of a graph network — per layer: sum each node's neighbours' features along the edges, add the
  node's own features, multiply by a weight matrix, add a bias, clamp below at zero — computed by a program
  that runs the dense half of each layer on blocks of 5000 nodes, against a reference that computes each
  layer on whole arrays. On the extended reals the two are one function of the arguments, because an entry
  of a layer's output depends on its own node's row only, so the blocks' rows are the whole array's rows.
  The claims are proved in Proof/Claims.lean; this file assembles them.
-/
import proofs.«111389_j4587025072633_2_alg».proof.Defs
import proofs.«111389_j4587025072633_2_alg».proof.Proof.Gen.Kernel
import proofs.«111389_j4587025072633_2_alg».proof.Proof.Gen.Kernel.Skeleton
import proofs.«111389_j4587025072633_2_alg».proof.Proof.Gen.Kernel.Launch
import proofs.«111389_j4587025072633_2_alg».proof.Proof.Gen.Kernel.Points
import proofs.«111389_j4587025072633_2_alg».proof.Proof.Gen.Kernel.Frame
import proofs.«111389_j4587025072633_2_alg».proof.Proof.Gen.KernelIdeal
import proofs.«111389_j4587025072633_2_alg».proof.Proof.Gen.KernelIdeal.Skeleton
import proofs.«111389_j4587025072633_2_alg».proof.Proof.Gen.KernelIdeal.Launch
import proofs.«111389_j4587025072633_2_alg».proof.Proof.Gen.KernelIdeal.Points
import proofs.«111389_j4587025072633_2_alg».proof.Proof.Gen.KernelIdeal.Frame
import proofs.«111389_j4587025072633_2_alg».proof.Proof.Gen.ReferenceIdeal
import proofs.«111389_j4587025072633_2_alg».proof.Proof.Gen.Pre_finite_inputs
import proofs.«111389_j4587025072633_2_alg».proof.Proof.Gen.ReferenceIdeal.Run
import proofs.«111389_j4587025072633_2_alg».proof.Proof.Gen.ReferenceIdeal.Read
import proofs.«111389_j4587025072633_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    GinClaims.frame_k, GinClaims.frame_ki, GinClaims.frame_ri, GinClaims.preserves, GinClaims.algebraic⟩

end Cert.Proof

end
